-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x3 : Shape := ⟨3, ![64, 512, 3]⟩
abbrev S64x512 : Shape := ⟨2, ![64, 512]⟩
abbrev S_ : Shape := ⟨0, ![]⟩

class Facts : Prop where
  bcast_S_S64x512x3 : S_.BroadcastsInDim S64x512x3 (![] : Fin 0 → Fin S64x512x3.rank)
  reducesTo_S64x512x3_S_d0_1_2 : S64x512x3.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S64x512x3 .f32) (main_arg1 : FVec F S64x512 .f32) (main_arg2 : IVec S64x512 1) : IVec S_ 1 :=
  let main_v0 : FVec F S64x512x3 .f32 := Host.absf main_arg0
  let main_cst : FVec F S_ .f32 := constant S_ .f32 0x7F800000#32
  let main_v1 : FVec F S64x512x3 .f32 := broadcastInDim S64x512x3 ![] bcast_S_S64x512x3 main_cst
  let main_v2 : IVec S64x512x3 1 := cmpf .olt main_v0 main_v1
  let main_c : IVec S_ 1 := constantI S_ 1 1#1
  let main_v3 : IVec S_ 1 := (fun x v => Host.reduce IntOp.andi x v reducesTo_S64x512x3_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  main_v8
-- ==== Kernel.lean ====
abbrev S64x512x3 : Shape := ⟨3, ![64, 512, 3]⟩
abbrev S64x512 : Shape := ⟨2, ![64, 512]⟩
abbrev S64x3x512 : Shape := ⟨3, ![64, 3, 512]⟩
abbrev S64x1x512 : Shape := ⟨3, ![64, 1, 512]⟩
abbrev S64x1x1 : Shape := ⟨3, ![64, 1, 1]⟩
abbrev S1x3x512 : Shape := ⟨3, ![1, 3, 512]⟩
abbrev S1x1x512 : Shape := ⟨3, ![1, 1, 512]⟩
abbrev S1x1x1 : Shape := ⟨3, ![1, 1, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S1x1 : Shape := ⟨2, ![1, 1]⟩
abbrev S64 : Shape := ⟨1, ![64]⟩

abbrev nBuf : Space → Nat
  | .hbm => 9
  | .vmem => 8
  | .smem => 0
  | _ => 0

abbrev bufTy : (tb : Table) → Fin (tcTables nBuf tb) → BufTy
  | .hbm, ⟨0, _⟩ => ⟨S64x512x3, .f32⟩
  | .hbm, ⟨1, _⟩ => ⟨S64x512, .f32⟩
  | .hbm, ⟨2, _⟩ => ⟨S64x512, .i1⟩
  | .hbm, ⟨3, _⟩ => ⟨S64x3x512, .f32⟩
  | .hbm, ⟨4, _⟩ => ⟨S64x1x512, .f32⟩
  | .hbm, ⟨5, _⟩ => ⟨S64x512, .f32⟩
  | .hbm, ⟨6, _⟩ => ⟨S64x1x512, .f32⟩
  | .hbm, ⟨7, _⟩ => ⟨S64x1x1, .f32⟩
  | .hbm, ⟨8, _⟩ => ⟨S64, .f32⟩
  | .local _ .vmem, ⟨0, _⟩ => ⟨S1x3x512, .f32⟩
  | .local _ .vmem, ⟨1, _⟩ => ⟨S1x3x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x1, .f32⟩
  | .local _ .vmem, ⟨7, _⟩ => ⟨S1x1x1, .f32⟩
  | _, _ => ⟨S64x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x512x3_S64x3x512_0_2_1 : S64x512x3.Transposes [0, 2, 1] S64x3x512
  shapeCasts_S64x512_S64x1x512 : S64x512.ShapeCasts S64x1x512
  inb_S1x3x512_S1x3x512_0_0_0 : ∀ a, (![0, 0, 0] : Fin 3 → Nat) a + S1x3x512.size a ≤ S1x3x512.size a
  h_S1x3x512 : 0 < S1x3x512.numel
  shapeCasts_S1x3x512_S1x3x512 : S1x3x512.ShapeCasts S1x3x512
  slices_S1x3x512_o0_0_0_S1x1x512 : S1x3x512.Slices ![0, 0, 0] S1x1x512
  shapeCasts_S1x1x512_S512 : S1x1x512.ShapeCasts S512
  slices_S1x3x512_o0_1_0_S1x1x512 : S1x3x512.Slices ![0, 1, 0] S1x1x512
  slices_S1x3x512_o0_2_0_S1x1x512 : S1x3x512.Slices ![0, 2, 0] S1x1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S64x1x1_S64 : S64x1x1.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S64x3x512.size a
  hwx0_0 : ∀ i : grid0.Coords, EltTy.bits .f32 = 32 ∨ (Rect.block (s := S64x3x512) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S64x1x512.size a
  hwx0_1 : ∀ i : grid0.Coords, EltTy.bits .f32 = 32 ∨ (Rect.block (s := S64x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)

variable [Facts₀]

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x3 : Shape := ⟨3, ![64, 512, 3]⟩
abbrev S64x512 : Shape := ⟨2, ![64, 512]⟩
abbrev S64x512x1 : Shape := ⟨3, ![64, 512, 1]⟩
abbrev S64x1x512 : Shape := ⟨3, ![64, 1, 512]⟩
abbrev S64x512x512 : Shape := ⟨3, ![64, 512, 512]⟩
abbrev S512x512 : Shape := ⟨2, ![512, 512]⟩
abbrev S_ : Shape := ⟨0, ![]⟩
abbrev S1x512x512 : Shape := ⟨3, ![1, 512, 512]⟩
abbrev S64x512x1x3 : Shape := ⟨4, ![64, 512, 1, 3]⟩
abbrev S64x1x512x3 : Shape := ⟨4, ![64, 1, 512, 3]⟩
abbrev S64x512x512x3 : Shape := ⟨4, ![64, 512, 512, 3]⟩
abbrev S64 : Shape := ⟨1, ![64]⟩

abbrev nBuf : Space → Nat
  | .hbm => 75
  | .vmem => 0
  | .smem => 0
  | _ => 0

abbrev bufTy : (tb : Table) → Fin (tcTables nBuf tb) → BufTy
  | .hbm, ⟨0, _⟩ => ⟨S64x512x3, .f32⟩
  | .hbm, ⟨1, _⟩ => ⟨S64x512, .f32⟩
  | .hbm, ⟨2, _⟩ => ⟨S64x512, .i1⟩
  | .hbm, ⟨3, _⟩ => ⟨S64x512x1, .i1⟩
  | .hbm, ⟨4, _⟩ => ⟨S64x1x512, .i1⟩
  | .hbm, ⟨5, _⟩ => ⟨S64x512x512, .i1⟩
  | .hbm, ⟨6, _⟩ => ⟨S64x512x512, .i1⟩
  | .hbm, ⟨7, _⟩ => ⟨S64x512x512, .i1⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S1x512x512, .i1⟩
  | .hbm, ⟨15, _⟩ => ⟨S1x512x512, .i1⟩
  | .hbm, ⟨16, _⟩ => ⟨S64x512x512, .i1⟩
  | .hbm, ⟨17, _⟩ => ⟨S64x512x512, .i1⟩
  | .hbm, ⟨18, _⟩ => ⟨S64x512x1x3, .f32⟩
  | .hbm, ⟨19, _⟩ => ⟨S64x1x512x3, .f32⟩
  | .hbm, ⟨20, _⟩ => ⟨S64x512x512x3, .f32⟩
  | .hbm, ⟨21, _⟩ => ⟨S64x512x512x3, .f32⟩
  | .hbm, ⟨22, _⟩ => ⟨S64x512x512x3, .f32⟩
  | .hbm, ⟨23, _⟩ => ⟨S64x512x512x3, .f32⟩
  | .hbm, ⟨24, _⟩ => ⟨S_, .f32⟩
  | .hbm, ⟨25, _⟩ => ⟨S64x512x512, .f32⟩
  | .hbm, ⟨26, _⟩ => ⟨S_, .f32⟩
  | .hbm, ⟨27, _⟩ => ⟨S_, .f32⟩
  | .hbm, ⟨28, _⟩ => ⟨S64x512x512, .f32⟩
  | .hbm, ⟨29, _⟩ => ⟨S64x512x512, .f32⟩
  | .hbm, ⟨30, _⟩ => ⟨S64x512x512, .f32⟩
  | .hbm, ⟨31, _⟩ => ⟨S_, .f32⟩
  | .hbm, ⟨32, _⟩ => ⟨S64x512x512, .f32⟩
  | .hbm, ⟨33, _⟩ => ⟨S64x512x512, .f32⟩
  | .hbm, ⟨34, _⟩ => ⟨S_, .f32⟩
  | .hbm, ⟨35, _⟩ => ⟨S64x512x512, .f32⟩
  | .hbm, ⟨36, _⟩ => ⟨S64x512x512, .i1⟩
  | .hbm, ⟨37, _⟩ => ⟨S_, .f32⟩
  | .hbm, ⟨38, _⟩ => ⟨S_, .f32⟩
  | .hbm, ⟨39, _⟩ => ⟨S64x512x512, .f32⟩
  | .hbm, ⟨40, _⟩ => ⟨S64x512x512, .f32⟩
  | .hbm, ⟨41, _⟩ => ⟨S64x512x512, .f32⟩
  | .hbm, ⟨42, _⟩ => ⟨S_, .f32⟩
  | .hbm, ⟨43, _⟩ => ⟨S64x512x512, .f32⟩
  | .hbm, ⟨44, _⟩ => ⟨S64x512x512, .f32⟩
  | .hbm, ⟨45, _⟩ => ⟨S_, .f32⟩
  | .hbm, ⟨46, _⟩ => ⟨S64x512x512, .f32⟩
  | .hbm, ⟨47, _⟩ => ⟨S64x512x512, .f32⟩
  | .hbm, ⟨48, _⟩ => ⟨S_, .f32⟩
  | .hbm, ⟨49, _⟩ => ⟨S64x512x512, .f32⟩
  | .hbm, ⟨50, _⟩ => ⟨S64x512x512, .f32⟩
  | .hbm, ⟨51, _⟩ => ⟨S64x512x512, .f32⟩
  | .hbm, ⟨52, _⟩ => ⟨S_, .f32⟩
  | .hbm, ⟨53, _⟩ => ⟨S_, .f32⟩
  | .hbm, ⟨54, _⟩ => ⟨S64x512x512, .f32⟩
  | .hbm, ⟨55, _⟩ => ⟨S64x512x512, .f32⟩
  | .hbm, ⟨56, _⟩ => ⟨S_, .f32⟩
  | .hbm, ⟨57, _⟩ => ⟨S64x512x512, .f32⟩
  | .hbm, ⟨58, _⟩ => ⟨S64x512x512, .f32⟩
  | .hbm, ⟨59, _⟩ => ⟨S64x512x1, .f32⟩
  | .hbm, ⟨60, _⟩ => ⟨S64x1x512, .f32⟩
  | .hbm, ⟨61, _⟩ => ⟨S64x512x512, .f32⟩
  | .hbm, ⟨62, _⟩ => ⟨S64x512x512, .f32⟩
  | .hbm, ⟨63, _⟩ => ⟨S64x512x512, .f32⟩
  | .hbm, ⟨64, _⟩ => ⟨S64x512x512, .f32⟩
  | .hbm, ⟨65, _⟩ => ⟨S64x512x512, .f32⟩
  | .hbm, ⟨66, _⟩ => ⟨S_, .f32⟩
  | .hbm, ⟨67, _⟩ => ⟨S_, .f32⟩
  | .hbm, ⟨68, _⟩ => ⟨S64x512x512, .f32⟩
  | .hbm, ⟨69, _⟩ => ⟨S64x512x512, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | _, _ => ⟨S64x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_call2_v0 : Ref sig .tc := ⟨.hbm, 53, rfl⟩
abbrev main_call2_v1 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_call3_v0 : Ref sig .tc := ⟨.hbm, 67, rfl⟩
abbrev main_call3_v1 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  bcast_S64x512x3_S64x512x1x3_0_1_3 : S64x512x3.BroadcastsInDim S64x512x1x3 (![0, 1, 3] : Fin 3 → Fin S64x512x1x3.rank)
  bcast_S64x512x3_S64x1x512x3_0_2_3 : S64x512x3.BroadcastsInDim S64x1x512x3 (![0, 2, 3] : Fin 3 → Fin S64x1x512x3.rank)
  bcast_S64x512x1x3_S64x512x512x3_0_1_2_3 : S64x512x1x3.BroadcastsInDim S64x512x512x3 (![0, 1, 2, 3] : Fin 4 → Fin S64x512x512x3.rank)
  bcast_S64x1x512x3_S64x512x512x3_0_1_2_3 : S64x1x512x3.BroadcastsInDim S64x512x512x3 (![0, 1, 2, 3] : Fin 4 → Fin S64x512x512x3.rank)
  reducesTo_S64x512x512x3_S64x512x512_d3 : S64x512x512x3.ReducesTo [3] S64x512x512
  h_S_ : 0 < S_.numel
  bcast_S_S64x512x512 : S_.BroadcastsInDim S64x512x512 (![] : Fin 0 → Fin S64x512x512.rank)
  reducesTo_S64x512x512_S64_d1_2 : S64x512x512.ReducesTo [1, 2] S64
  bcast_S_S64 : S_.BroadcastsInDim S64 (![] : Fin 0 → Fin S64.rank)

variable [Facts₀]

class Facts : Prop extends Facts₀ where

variable [Facts]
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibPairSums.lean ====
/-
  Sums and reshapes read at an index written by coordinates, over the extended reals.

  * A column [a, 1] summed over its long axis, from the zero accumulator, is Σ_p of the column at (p, 0).
  * The host's sum of a three-axis array [n, a, c] over its two trailing axes, at b, is the initial value plus
    Σ_p Σ_q of the array at (b, p, q): the indices that drop to b are exactly the triples (b, p, q), one for
    each pair (p, q).
  * A block [1, 1, a] flattened to the vector [a] reads (0, 0, q) at q; a stack [n, 1, 1] flattened to [n] reads
    (b, 0, 0) at b.
  Every statement is generic in the extents.
-/
import Idealize.ShloMosaic.Lib.Pipeline.Value
import Idealize.ShloMosaic.Lib.ValueIdx
import Idealize.ShloMosaic.PureOps.Ideal.Laws

noncomputable section

open scoped BigOperators

namespace Cert.LibPairSums

open Idealize.ShloMosaic Idealize.ShloMosaic.ValueIdx

variable {α : Type}

/-- The sum over the long axis of a column [a, 1], from the zero accumulator, at its one index. -/
theorem col_sum_apply {a : Nat} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ p : Fin a, src (ix2 p (0 : Fin 1)) := by
  refine (Ideal.multiReduction_add_single src 0x00000000#32 h hφ hacc (ix1 u)).trans ?_
  exact Finset.sum_congr rfl fun p _ => congrArg src (funext fun ax => Fin.ext (by
    match ax with
    | ⟨0, _⟩ => rfl
    | ⟨1, _⟩ =>
      show u.val = 0
      omega))

/-- The host's sum over the two trailing axes of [n, a, c], at b. -/
theorem host_sum_last2_apply {n a c : Nat} (x : (⟨3, ![n, a, c]⟩ : Shape).Idx → EReal)
    (h' : (⟨3, ![n, a, c]⟩ : Shape).ReducesTo [1, 2] ⟨1, ![n]⟩) (init : EReal) (b : Fin n) :
    Ideal.hostReduceAdd h' x init (ix1 b) = init + ∑ p : Fin a, ∑ q : Fin c, x (ix3 b p q) := by
  unfold Ideal.hostReduceAdd
  refine congrArg (init + ·) ?_
  refine Eq.trans ?_ (Finset.sum_product' (Finset.univ : Finset (Fin a)) (Finset.univ : Finset (Fin c))
    (fun p q => x (ix3 b p q)))
  refine Finset.sum_nbij' (fun i => ((i 1 : Fin a), (i 2 : Fin c))) (fun pq => ix3 b pq.1 pq.2) ?_ ?_ ?_ ?_ ?_
  · intro i _
    exact Finset.mem_product.2 ⟨Finset.mem_univ _, Finset.mem_univ _⟩
  · intro pq _
    refine Finset.mem_filter.2 ⟨Finset.mem_univ _, ?_⟩
    funext d
    match d with
    | ⟨0, _⟩ => exact Fin.ext rfl
  · intro i hi
    have hj := (Finset.mem_filter.1 hi).2
    have h0 : (i 0).val = b.val := congrArg (fun (j : (⟨1, ![n]⟩ : Shape).Idx) => (j 0).val) hj
    funext d
    match d with
    | ⟨0, _⟩ => exact Fin.ext h0.symm
    | ⟨1, _⟩ => rfl
    | ⟨2, _⟩ => rfl
  · intro pq _
    rfl
  · intro i hi
    have hj := (Finset.mem_filter.1 hi).2
    have h0 : (i 0).val = b.val := congrArg (fun (j : (⟨1, ![n]⟩ : Shape).Idx) => (j 0).val) hj
    refine congrArg x (funext fun d => ?_)
    match d with
    | ⟨0, _⟩ => exact Fin.ext h0
    | ⟨1, _⟩ => rfl
    | ⟨2, _⟩ => rfl

/-- A block [1, 1, a] as the vector [a]. -/
theorem flat_cast_apply {a : Nat} (x : (⟨3, ![1, 1, a]⟩ : Shape).Idx → α)
    (h : (⟨3, ![1, 1, a]⟩ : Shape).ShapeCasts ⟨1, ![a]⟩) (q : Fin a) :
    shapeCast ⟨1, ![a]⟩ x h (ix1 q) = x (ix3 (0 : Fin 1) (0 : Fin 1) q) :=
  shapeCast_apply x h _ _ (by
    rw [Shape.rowMajor_val_three, Shape.rowMajor_val_one]
    show (0 * 1 + 0) * a + q.val = q.val
    simp only [Nat.zero_mul, Nat.zero_add])

/-- A stack [n, 1, 1] as the vector [n]. -/
theorem stack_cast_apply {n : Nat} (x : (⟨3, ![n, 1, 1]⟩ : Shape).Idx → α)
    (h : (⟨3, ![n, 1, 1]⟩ : Shape).ShapeCasts ⟨1, ![n]⟩) (b : Fin n) :
    shapeCast ⟨1, ![n]⟩ x h (ix1 b) = x (ix3 b (0 : Fin 1) (0 : Fin 1)) :=
  shapeCast_apply x h _ _ (by
    rw [Shape.rowMajor_val_three, Shape.rowMajor_val_one]
    show (b.val * 1 + 0) * 1 + 0 = b.val
    simp only [Nat.mul_one, Nat.add_zero])

end Cert.LibPairSums

end
-- ==== Proof.Spec.lean ====
/-
  The quantity both programs compute, stated once over the extended reals.

  For a molecule b with atom positions r_p (three coordinates), charges c_p and a validity bit per atom, the
  energy is  κ · Σ_p Σ_q e(p, q)  over ordered pairs, where a pair counts when both atoms are valid and p ≠ q, and

    e(p, q) = (1 - f(d / rc)) · (c_p · c_q) / d,   d = sqrt |r_p - r_q|²,
    f(x)    = exp (1 - 1 / (1 - x²)) for x < 1, and 0 otherwise

  (inside the cutoff the bump is evaluated at x; outside it at the harmless value 1/2 and then discarded). A pair that does
  not count contributes 0, and its distance is replaced by 1 before the square root so that nothing is divided by zero.
  κ, rc and the other constants are kept as the binary words both programs spell; only 1/2 is ever evaluated, to
  compare a product of two validity bits with it.
-/
import Idealize.ShloMosaic.Lib.ValueIdx
import Idealize.ShloMosaic.PureOps.Ideal.Laws

noncomputable section

open scoped BigOperators

namespace Cert.Coulomb

open Idealize.ShloMosaic Idealize.ShloMosaic.ValueIdx

/-- The words the two programs spell: 0, 1/2, 1, the cutoff radius and the energy scale. -/
abbrev w0 : EReal := Ideal.ofBits .f32 0x00000000#32
abbrev wHalf : EReal := Ideal.ofBits .f32 0x3F000000#32
abbrev w1 : EReal := Ideal.ofBits .f32 0x3F800000#32
abbrev wRc : EReal := Ideal.ofBits .f32 0x40933333#32
abbrev wScale : EReal := Ideal.ofBits .f32 0x40E664F3#32

/-- The distance of a pair: the square root of its squared distance, or of 1 when the pair does not count. -/
def pairDist (v : BitVec 1) (s : EReal) : EReal := Ideal.sqrt (Scalar.select v s w1)

/-- Whether a distance, in units of the cutoff radius, is inside the cutoff. -/
def inside (d : EReal) : BitVec 1 := Ideal.cmp .olt (Ideal.div d wRc) w1

/-- The smooth cutoff at a distance: the bump inside the cutoff, 0 outside. -/
def bump (d : EReal) : EReal :=
  Scalar.select (inside d)
    (Ideal.exp (w1 - Ideal.div w1
      (w1 - Scalar.select (inside d) (Ideal.div d wRc) wHalf * Scalar.select (inside d) (Ideal.div d wRc) wHalf)))
    w0

/-- The energy of one ordered pair: validity bit, squared distance, product of the charges. -/
def pairTerm (v : BitVec 1) (s cc : EReal) : EReal :=
  Scalar.select v (Ideal.div ((w1 - bump (pairDist v s)) * cc) (pairDist v s)) w0

/-- The squared distance of atoms p and q of molecule b, coordinate by coordinate. -/
def dist2 (r : (⟨3, ![64, 512, 3]⟩ : Shape).Idx → EReal) (b : Fin 64) (p q : Fin 512) : EReal :=
  (r (ix3 b p (0 : Fin 3)) - r (ix3 b q (0 : Fin 3))) * (r (ix3 b p (0 : Fin 3)) - r (ix3 b q (0 : Fin 3)))
    + (r (ix3 b p (1 : Fin 3)) - r (ix3 b q (1 : Fin 3))) * (r (ix3 b p (1 : Fin 3)) - r (ix3 b q (1 : Fin 3)))
    + (r (ix3 b p (2 : Fin 3)) - r (ix3 b q (2 : Fin 3))) * (r (ix3 b p (2 : Fin 3)) - r (ix3 b q (2 : Fin 3)))

/-- A pair counts when both atoms are valid and the two atoms differ. -/
def counts (μ : (⟨2, ![64, 512]⟩ : Shape).Idx → BitVec 1) (b : Fin 64) (p q : Fin 512) : BitVec 1 :=
  IntOp.andi (IntOp.andi (μ (ix2 b p)) (μ (ix2 b q)))
    (~~~ IntOp.cmpi .eq (BitVec.ofNat 32 p.val) (BitVec.ofNat 32 q.val))

/-- The energy of molecule b. -/
def energy (r : (⟨3, ![64, 512, 3]⟩ : Shape).Idx → EReal) (c : (⟨2, ![64, 512]⟩ : Shape).Idx → EReal)
    (μ : (⟨2, ![64, 512]⟩ : Shape).Idx → BitVec 1) (b : Fin 64) : EReal :=
  wScale * ∑ p : Fin 512, ∑ q : Fin 512,
    pairTerm (counts μ b p q) (dist2 r b p q) (c (ix2 b p) * c (ix2 b q))

/-- The energies of all molecules, as the vector both programs return. -/
def energies (r : (⟨3, ![64, 512, 3]⟩ : Shape).Idx → EReal) (c : (⟨2, ![64, 512]⟩ : Shape).Idx → EReal)
    (μ : (⟨2, ![64, 512]⟩ : Shape).Idx → BitVec 1) : (⟨1, ![64]⟩ : Shape).Idx → EReal :=
  fun i => energy r c μ (i 0)

/-- The same numbers as the stack [64, 1, 1] of one-entry blocks that the kernel writes, one block per molecule. -/
def energyStack (r : (⟨3, ![64, 512, 3]⟩ : Shape).Idx → EReal) (c : (⟨2, ![64, 512]⟩ : Shape).Idx → EReal)
    (μ : (⟨2, ![64, 512]⟩ : Shape).Idx → BitVec 1) : (⟨3, ![64, 1, 1]⟩ : Shape).Idx → EReal :=
  fun i => energy r c μ (i 0)

/-! ## A product of two validity bits against one half -/

/-- The word 0x3F000000 is one half. -/
theorem wHalf_eq : wHalf = ((1 / 2 : ℝ) : EReal) := by
  show Ideal.ofBits .f32 0x3F000000#32 = _
  simp [Ideal.ofBits, Ideal.ieee, -EReal.coe_mul]; norm_num

/-- A bit is 0 or 1. -/
theorem bit_cases (a : BitVec 1) : a = 0#1 ∨ a = 1#1 := by
  by_cases h : a = 1#1
  · exact Or.inr h
  · exact Or.inl (eq_zero_of_ne_one h)

/-- A strict comparison that holds reads as the bit 1, one that fails as the bit 0. -/
theorem ofBool_lt_true {x y : EReal} (h : x < y) : BitVec.ofBool (decide (x < y)) = 1#1 := by
  rw [decide_eq_true h]; rfl
theorem ofBool_lt_false {x y : EReal} (h : ¬ x < y) : BitVec.ofBool (decide (x < y)) = 0#1 := by
  rw [decide_eq_false h]; rfl

/-- Two bits read as the numbers 0 and 1: their product exceeds one half exactly when both are 1. -/
theorem prod_gt_half (a b : BitVec 1) :
    Ideal.cmp .ogt (((a.toNat : ℝ) : EReal) * ((b.toNat : ℝ) : EReal)) wHalf = IntOp.andi a b := by
  rw [wHalf_eq]
  rcases bit_cases a with rfl | rfl <;> rcases bit_cases b with rfl | rfl
  · exact ofBool_lt_false (x := ((1 / 2 : ℝ) : EReal)) (y := (((0 : ℕ) : ℝ) : EReal) * (((0 : ℕ) : ℝ) : EReal))
      (by rw [← EReal.coe_mul, EReal.coe_lt_coe_iff]; norm_num)
  · exact ofBool_lt_false (x := ((1 / 2 : ℝ) : EReal)) (y := (((0 : ℕ) : ℝ) : EReal) * (((1 : ℕ) : ℝ) : EReal))
      (by rw [← EReal.coe_mul, EReal.coe_lt_coe_iff]; norm_num)
  · exact ofBool_lt_false (x := ((1 / 2 : ℝ) : EReal)) (y := (((1 : ℕ) : ℝ) : EReal) * (((0 : ℕ) : ℝ) : EReal))
      (by rw [← EReal.coe_mul, EReal.coe_lt_coe_iff]; norm_num)
  · exact ofBool_lt_true (x := ((1 / 2 : ℝ) : EReal)) (y := (((1 : ℕ) : ℝ) : EReal) * (((1 : ℕ) : ℝ) : EReal))
      (by rw [← EReal.coe_mul, EReal.coe_lt_coe_iff]; norm_num)

/-- Flipping a bit by exclusive-or with 1 is its complement. -/
theorem xor_one (a : BitVec 1) : IntOp.xori a 1#1 = ~~~ a := by
  rcases bit_cases a with rfl | rfl <;> rfl

end Cert.Coulomb

end
-- ==== Proof.KernelPoint.lean ====
/-
  What the kernel body computes for one molecule, read index by index over the extended reals.

  The body holds one molecule's block of positions as [1, 3, 512] (coordinate k of atom p at (0, k, p)), its charges
  and its validity flags (as the numbers 0 and 1) as [1, 1, 512]. From each row v of 512 numbers it forms the square
  arrays v_p - v_q or v_p · v_q by repeating the row down the columns and along the rows; entry (p, q) of such an array
  depends on v_p and v_q only. The pair energies are then summed along each row and the row sums down the one
  remaining column, and the total is scaled. So the one number the body stores is the scale times Σ_p Σ_q of the
  pair energy at (p, q).
-/
import proofs.«139432_j17085379903614_1_alg».proof.Proof.Gen.KernelIdeal.Skeleton
import proofs.«139432_j17085379903614_1_alg».proof.Proof.LibRows
import proofs.«139432_j17085379903614_1_alg».proof.Proof.LibPairSums
import proofs.«139432_j17085379903614_1_alg».proof.Proof.Spec
import Idealize.ShloMosaic.Lib.ValueLayout

noncomputable section

open scoped BigOperators

namespace Cert.KernelIdeal.Point

open Cert.KernelIdeal Cert.KernelIdeal.Gen Idealize.ShloMosaic Idealize.ShloMosaic.ValueIdx Cert.Coulomb

variable {α : Type}

/-! ## Rows of a block, and a row spread over a square -/

/-- A row repeated along the rows of the square: entry (p, q) is the row's p. -/
theorem outer_col (v : S512.Idx → α) (p q : Fin 512) :
    broadcastTo S512x512 (shapeCast S512x1 v shapeCasts_S512_S512x1) broadcasts_S512x1_S512x512 (ix2 p q) = v (ix1 p) :=
  (Cert.LibRows.bcast_col_apply _ broadcasts_S512x1_S512x512 p q).trans
    (Cert.LibRows.col_cast_apply v shapeCasts_S512_S512x1 p (0 : Fin 1))

/-- A row repeated down the columns of the square: entry (p, q) is the row's q. -/
theorem outer_row (v : S512.Idx → α) (p q : Fin 512) :
    broadcastTo S512x512 (shapeCast S1x512 v shapeCasts_S512_S1x512) broadcasts_S1x512_S512x512 (ix2 p q) = v (ix1 q) :=
  (broadcastTo_1b_ab_apply _ broadcasts_S1x512_S512x512 p q).trans
    (shapeCast_a_1a_apply v shapeCasts_S512_S1x512 (0 : Fin 1) q)

/-- The one row of a [1, 1, 512] block. -/
theorem flat_row (x : S1x1x512.Idx → α) (p : Fin 512) :
    shapeCast S512 (shapeCast S1x1x512 x shapeCasts_S1x1x512_S1x1x512) shapeCasts_S1x1x512_S512 (ix1 p)
      = x (ix3 (0 : Fin 1) (0 : Fin 1) p) := by
  rw [shapeCast_self]
  exact Cert.LibPairSums.flat_cast_apply x shapeCasts_S1x1x512_S512 p

/-- Row k of the position block: coordinate k of every atom. -/
theorem coord_row (x : S1x3x512.Idx → α) (o : Nat) (hs : S1x3x512.Slices ![0, o, 0] S1x1x512) (k : Fin 3) (hk : k.val = o)
    (p : Fin 512) :
    shapeCast S512 (extractStridedSlice S1x1x512 ![0, o, 0] (shapeCast S1x3x512 x shapeCasts_S1x3x512_S1x3x512) hs)
        shapeCasts_S1x1x512_S512 (ix1 p)
      = x (ix3 (0 : Fin 1) k p) := by
  rw [shapeCast_self]
  refine (Cert.LibPairSums.flat_cast_apply _ shapeCasts_S1x1x512_S512 p).trans ?_
  exact slice3_axis1_apply o x hs (0 : Fin 1) (0 : Fin 1) p k (by omega)

/-! ## The four square arrays the body forms -/

/-- The squared distances: entry (p, q) from the three coordinates of atoms p and q. -/
theorem pay2_apply (x0 : Vec Ideal S1x3x512 .f32) (p q : Fin 512) :
    k0_pay2 x0 (ix2 p q)
      = (x0 (ix3 (0 : Fin 1) (0 : Fin 3) p) - x0 (ix3 (0 : Fin 1) (0 : Fin 3) q))
          * (x0 (ix3 (0 : Fin 1) (0 : Fin 3) p) - x0 (ix3 (0 : Fin 1) (0 : Fin 3) q))
        + (x0 (ix3 (0 : Fin 1) (1 : Fin 3) p) - x0 (ix3 (0 : Fin 1) (1 : Fin 3) q))
          * (x0 (ix3 (0 : Fin 1) (1 : Fin 3) p) - x0 (ix3 (0 : Fin 1) (1 : Fin 3) q))
        + (x0 (ix3 (0 : Fin 1) (2 : Fin 3) p) - x0 (ix3 (0 : Fin 1) (2 : Fin 3) q))
          * (x0 (ix3 (0 : Fin 1) (2 : Fin 3) p) - x0 (ix3 (0 : Fin 1) (2 : Fin 3) q)) := by
  unfold k0_pay2
  simp only [addf_apply, mulf_apply, subf_apply, outer_col, outer_row]
  rw [coord_row x0 0 slices_S1x3x512_o0_0_0_S1x1x512 (0 : Fin 3) rfl, coord_row x0 0 slices_S1x3x512_o0_0_0_S1x1x512 (0 : Fin 3) rfl,
    coord_row x0 1 slices_S1x3x512_o0_1_0_S1x1x512 (1 : Fin 3) rfl, coord_row x0 1 slices_S1x3x512_o0_1_0_S1x1x512 (1 : Fin 3) rfl,
    coord_row x0 2 slices_S1x3x512_o0_2_0_S1x1x512 (2 : Fin 3) rfl, coord_row x0 2 slices_S1x3x512_o0_2_0_S1x1x512 (2 : Fin 3) rfl]

/-- The products of charges: entry (p, q) is c_p · c_q. -/
theorem pay3_apply (x1 : Vec Ideal S1x1x512 .f32) (p q : Fin 512) :
    k0_pay3 x1 (ix2 p q) = x1 (ix3 (0 : Fin 1) (0 : Fin 1) p) * x1 (ix3 (0 : Fin 1) (0 : Fin 1) q) := by
  unfold k0_pay3
  simp only [mulf_apply, outer_col, outer_row, flat_row]

/-- The diagonal: entry (p, q) says whether p and q are the same atom. -/
theorem pay4_apply (p q : Fin 512) :
    k0_pay4 (ix2 p q) = IntOp.cmpi .eq (BitVec.ofNat 32 p.val) (BitVec.ofNat 32 q.val) := by
  unfold k0_pay4
  show IntOp.cmpi .eq (iota .tc S512x512 32 [0] iota_S512x512_d0_w32 (ix2 p q)) (iota .tc S512x512 32 [1] iota_S512x512_d1_w32 (ix2 p q)) = _
  rw [iota_single_apply, iota_single_apply]

/-- Both atoms valid: entry (p, q) compares the product of the two flags with one half. -/
theorem pay5_apply (x2 : Vec Ideal S1x1x512 .f32) (p q : Fin 512) :
    k0_pay5 x2 (ix2 p q) = Ideal.cmp .ogt (x2 (ix3 (0 : Fin 1) (0 : Fin 1) p) * x2 (ix3 (0 : Fin 1) (0 : Fin 1) q)) wHalf := by
  unfold k0_pay5
  rw [cmpf_apply, broadcast_apply, mulf_apply, outer_col, outer_row, flat_row, flat_row]
  rfl

/-! ## The number the body stores -/

/-- From the four square arrays: the scale times the sum over rows of the row sums of the pair energies. -/
theorem pay1_apply (v33 v38 : FVec Ideal S512x512 .f32) (v46 v48 : IVec S512x512 1) (j : S1x1x1.Idx) :
    k0_pay1 v33 v38 v46 v48 j
      = wScale * ∑ p : Fin 512, ∑ q : Fin 512,
          pairTerm (IntOp.andi (v48 (ix2 p q)) (IntOp.xori (v46 (ix2 p q)) 1#1)) (v33 (ix2 p q)) (v38 (ix2 p q)) := by
  obtain ⟨u0, u1, u2, rfl⟩ : ∃ (u0 : Fin 1) (u1 : Fin 1) (u2 : Fin 1), j = ix3 u0 u1 u2 := ⟨j 0, j 1, j 2, eq_ix3 j⟩
  unfold k0_pay1
  refine (shapeCast_ab_1ab_apply _ shapeCasts_S1x1_S1x1x1 u0 u1 u2).trans ?_
  refine congrArg (wScale * ·) ?_
  refine (shapeCast_a_1a_apply _ shapeCasts_S1_S1x1 u1 u2).trans ?_
  refine (Cert.LibPairSums.col_sum_apply _ reduces_S512x1_S1 _ _ u2).trans ?_
  refine Finset.sum_congr rfl fun p _ => ?_
  refine (Cert.LibRows.col_cast_apply _ shapeCasts_S512_S512x1 p (0 : Fin 1)).trans ?_
  refine (Cert.LibRows.lane_sum_last_apply _ reduces_S512x512_S512 _ _ p).trans ?_
  refine Finset.sum_congr rfl fun q _ => ?_
  rfl

/-- The number stored for molecule b, when the three blocks hold b's rows of the argument arrays (positions with
    the coordinate axis first, validity flags as the numbers 0 and 1): it is b's energy. The product of two flags
    exceeds one half exactly when both are set, and a bit flipped by exclusive-or with 1 is its complement. -/
theorem point_energy (x0 : Vec Ideal S1x3x512 .f32) (x1 x2 : Vec Ideal S1x1x512 .f32)
    (r : (⟨3, ![64, 512, 3]⟩ : Shape).Idx → EReal) (cg : (⟨2, ![64, 512]⟩ : Shape).Idx → EReal)
    (μ : (⟨2, ![64, 512]⟩ : Shape).Idx → BitVec 1) (b : Fin 64)
    (h0 : ∀ (k : Fin 3) (p : Fin 512), x0 (ix3 (0 : Fin 1) k p) = r (ix3 b p k))
    (h1 : ∀ p : Fin 512, x1 (ix3 (0 : Fin 1) (0 : Fin 1) p) = cg (ix2 b p))
    (h2 : ∀ p : Fin 512, x2 (ix3 (0 : Fin 1) (0 : Fin 1) p) = (((μ (ix2 b p)).toNat : ℝ) : EReal))
    (j : S1x1x1.Idx) :
    k0_pay1 (k0_pay2 x0) (k0_pay3 x1) k0_pay4 (k0_pay5 x2) j = energy r cg μ b := by
  rw [pay1_apply]
  unfold energy
  refine congrArg (wScale * ·) (Finset.sum_congr rfl fun p _ => Finset.sum_congr rfl fun q _ => ?_)
  rw [pay2_apply, pay3_apply, pay4_apply, pay5_apply]
  simp only [h0, h1, h2]
  rw [prod_gt_half, xor_one]
  rfl

end Cert.KernelIdeal.Point

end
-- ==== Proof.KernelValue.lean ====
/-
  The kernel's run: every molecule's energy in the result.

  The host lines before the call lay the arguments out for it: positions with the coordinate axis before the atom axis,
  charges and validity flags (the flags as the numbers 0 and 1) with a unit axis between molecule and atom. Grid point
  t is molecule t: each input's block at t is molecule t's slab of its array, and the output's block at t is the one
  entry (t, 0, 0). What the body stores there is molecule t's energy, the 64 blocks are the 64 entries of the
  output stack, and the last host line reads the stack [64, 1, 1] as the vector [64].
-/
import proofs.«139432_j17085379903614_1_alg».proof.Proof.Gen.KernelIdeal.Frame
import proofs.«139432_j17085379903614_1_alg».proof.Proof.KernelPoint
import Idealize.ShloMosaic.Lib.Pipeline.Value
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo Cert.Coulomb
open Idealize.ShloMosaic.Pipeline (Dat)

variable (m : (ℓ : Loc nD τ sig) → Buf (Elt Ideal) ℓ) (ρ : Dev nD → PrngReg)

/-- The three argument arrays as launched: positions, charges, validity flags. -/
abbrev pos (c : Dev nD) : S64x512x3.Idx → EReal := m ((c : Thread nD τ).loc main_arg0)
abbrev chg (c : Dev nD) : S64x512.Idx → EReal := m ((c : Thread nD τ).loc main_arg1)
abbrev flg (c : Dev nD) : S64x512.Idx → BitVec 1 := m ((c : Thread nD τ).loc main_arg2)

/-! ## What the call finds in its operands -/

theorem V_v0 (c : Dev nD) : (V m c main_v0 : S64x3x512.Idx → EReal)
    = transpose S64x3x512 [0, 2, 1] (pos m c) transposes_S64x512x3_S64x3x512_0_2_1 := by
  show StableHlo.after hostOps0 (fun b => m (c, b)) (Proc.devRef .tc main_v0) = _
  after_results

theorem V_v1 (c : Dev nD) : (V m c main_v1 : S64x1x512.Idx → EReal)
    = shapeCast S64x1x512 (chg m c) shapeCasts_S64x512_S64x1x512 := by
  show StableHlo.after hostOps0 (fun b => m (c, b)) (Proc.devRef .tc main_v1) = _
  after_results
  rfl

theorem V_v3 (c : Dev nD) : (V m c main_v3 : S64x1x512.Idx → EReal)
    = shapeCast S64x1x512 (uitofp (F := Ideal) .f32 (flg m c)) shapeCasts_S64x512_S64x1x512 := by
  show StableHlo.after hostOps0 (fun b => m (c, b)) (Proc.devRef .tc main_v3) = _
  after_results
  rfl

/-! ## Grid point t is molecule t -/

/-- Every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The molecule of a grid point. -/
def mol (t : Fin cfg0.N) : Fin 64 := ⟨t.val, lt_of_lt_of_eq t.isLt N_0⟩

/-- The positions' block at t: coordinate k of atom p of molecule t. -/
theorem blk0_apply (c : Dev nD) (t : Fin cfg0.N) (k : Fin 3) (p : Fin 512) :
    iblk m c 0 t (ix3 (0 : Fin 1) k p) = pos m c (ix3 (mol t) p k) := by
  obtain ⟨e0, e1, e2, -⟩ := idx_facts t
  show (V m c main_v0 : S64x3x512.Idx → EReal) (((cfg0.win 0).blk t).view.emb (ix3 (0 : Fin 1) k p)) = _
  have he : ((cfg0.win 0).blk t).view.emb (ix3 (0 : Fin 1) k p) = ix3 (mol t) k p := by
    funext a; apply Fin.ext
    match a with
    | ⟨0, _⟩ => show win0_0.index t (0 : Fin 3) * 1 + 1 * 0 = t.val; omega
    | ⟨1, _⟩ => show win0_0.index t (1 : Fin 3) * 3 + 1 * k.val = k.val; omega
    | ⟨2, _⟩ => show win0_0.index t (2 : Fin 3) * 512 + 1 * p.val = p.val; omega
  rw [he, V_v0]
  exact transpose_ix3_021_apply _ _ (mol t) k p

/-- The charges' block at t: the charge of atom p of molecule t. -/
theorem blk1_apply (c : Dev nD) (t : Fin cfg0.N) (p : Fin 512) :
    iblk m c 1 t (ix3 (0 : Fin 1) (0 : Fin 1) p) = chg m c (ix2 (mol t) p) := by
  obtain ⟨-, -, -, e0, e1, e2, -⟩ := idx_facts t
  show (V m c main_v1 : S64x1x512.Idx → EReal) (((cfg0.win 1).blk t).view.emb (ix3 (0 : Fin 1) (0 : Fin 1) p)) = _
  have he : ((cfg0.win 1).blk t).view.emb (ix3 (0 : Fin 1) (0 : Fin 1) p) = ix3 (mol t) (0 : Fin 1) p := by
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 512 + 1 * p.val = p.val; omega
  rw [he, V_v1]
  exact Cert.LibRows.insert_mid_apply _ _ (mol t) (0 : Fin 1) p

/-- The flags' block at t: the flag of atom p of molecule t, as the number 0 or 1. -/
theorem blk2_apply (c : Dev nD) (t : Fin cfg0.N) (p : Fin 512) :
    iblk m c 2 t (ix3 (0 : Fin 1) (0 : Fin 1) p) = ((((flg m c) (ix2 (mol t) p)).toNat : ℝ) : EReal) := by
  obtain ⟨-, -, -, -, -, -, e0, e1, e2, -⟩ := idx_facts t
  show (V m c main_v3 : S64x1x512.Idx → EReal) (((cfg0.win 2).blk t).view.emb (ix3 (0 : Fin 1) (0 : Fin 1) p)) = _
  have he : ((cfg0.win 2).blk t).view.emb (ix3 (0 : Fin 1) (0 : Fin 1) p) = ix3 (mol t) (0 : Fin 1) p := by
    funext a; apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 512 + 1 * p.val = p.val; omega
  rw [he, V_v3]
  exact Cert.LibRows.insert_mid_apply _ _ (mol t) (0 : Fin 1) p

/-! ## What point t writes back, and the output stack after the call -/

theorem hz3 : (![0, 0, 0] : Fin 3 → Nat) = fun _ => 0 := funext fun a => by fin_cases a <;> rfl

/-- Point t writes back its block of the stack of energies: the one entry of molecule t. -/
theorem flushed_eq (c : Dev nD) (t : Fin cfg0.N) :
    (dats m 0 c).flushed 3 t
      = ((cfg0.win 3).blk t).view.read (Elt Ideal) (energyStack (pos m c) (chg m c) (flg m c)) := by
  show (cfg0.win 3).cut (grid0.coords t) ((dats m 0 c).after 3 t) = _
  rw [after0_3]
  unfold out0_3
  rw [View.canon_unit_zero hz3]
  simp only [View.ld_unit_zero (S := S1x3x512) hz3, View.ld_unit_zero (S := S1x1x512) hz3]
  obtain ⟨-, -, -, -, -, -, -, -, -, e0, e1, e2⟩ := idx_facts t
  funext j
  show k0_pay1 (k0_pay2 (iblk m c 0 t)) (k0_pay3 (iblk m c 1 t)) k0_pay4 (k0_pay5 (iblk m c 2 t)) j
    = energy (pos m c) (chg m c) (flg m c) ((((cfg0.win 3).blk t).view.emb j) 0)
  refine (Cert.KernelIdeal.Point.point_energy (iblk m c 0 t) (iblk m c 1 t) (iblk m c 2 t) (pos m c) (chg m c) (flg m c)
    (mol t) (blk0_apply m c t) (blk1_apply m c t) (blk2_apply m c t) j).trans ?_
  refine congrArg (energy (pos m c) (chg m c) (flg m c)) (Fin.ext ?_)
  show t.val = win0_3.index t (0 : Fin 3) * 1 + 1 * (j 0).val
  have hj : (j 0).val < 1 := (j 0).isLt
  omega

/-- An index of the stack is in point t's block iff each coordinate is in the block's range on its axis. -/
theorem mem_blk (t : Fin cfg0.N) (i : S64x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v4).slice (win0_3.rect t)).set ↔ _
  rw [View.set_slice_whole, Rect.mem_set_unit]
  exact Iff.rfl

/-- Entry (b, 0, 0) of the stack is in the block of point b. -/
theorem cover (i : S64x1x1.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 1 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 1 ≤ (i 2).val ∧ (i 2).val < win0_3.index t (2 : Fin 3) * 1 + 1
    omega

/-- The output stack after the call: every molecule's energy. -/
theorem final (c : Dev nD) :
    (dats m 0 c).arrAt 3 cfg0.N = energyStack (pos m c) (chg m c) (flg m c) :=
  (dats m 0 c).arrAt_eq_of_cover 3 _ (fun t _ => flushed_eq m c t) cover

/-! ## The last host line, and the run -/

/-- The result after the host line that follows the call: the stack read as a vector. -/
theorem tail_eq (c : Dev nD) :
    Pipeline.afterTail₀ cfgs (dats m) 0 (V0 m) [hostOps1] c main_v5 = energies (pos m c) (chg m c) (flg m c) := by
  unfold Pipeline.afterTail₀
  show StableHlo.after hostOps1 _ (Proc.devRef .tc main_v5) = _
  after_results
  funext i
  obtain ⟨b, rfl⟩ : ∃ b : Fin 64, i = ix1 b := ⟨i 0, eq_ix1 i⟩
  show shapeCast S64 (Pipeline.withArrays (cfgs 0).spec c (V0 m c) (fun w => (dats m 0 c).arrAt w (cfgs 0).N)
      (Proc.devRef .tc main_v4) : S64x1x1.Idx → EReal) shapeCasts_S64x1x1_S64 (ix1 b)
    = energy (pos m c) (chg m c) (flg m c) b
  rw [show (Pipeline.withArrays (cfgs 0).spec c (V0 m c) (fun w => (dats m 0 c).arrAt w (cfgs 0).N)
      (Proc.devRef .tc main_v4) : S64x1x1.Idx → EReal) = energyStack (pos m c) (chg m c) (flg m c) from
    (Pipeline.withArrays_arr spec0 launch0.win.arr_inj c _ _ 3).trans (final m c)]
  exact Cert.LibPairSums.stack_cast_apply _ shapeCasts_S64x1x1_S64 b

/-- Every weakly fair execution of the kernel's program ends with each molecule's energy in the result and the
    arguments as launched. -/
theorem run : θ_run defs (onTc (τ := τ) (main (F := Ideal))) ⟨m, fun _ => 0, ρ⟩ fun r => ∀ c : Dev nD,
      r.2.mem ((c : Thread nD τ).loc main_v5) = energies (pos m c) (chg m c) (flg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v5 (Pipeline.mem_restRefs_of main_v5 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference program's result is the energy of each molecule.

  The reference forms, for all 64 molecules at once, the arrays indexed (b, p, q): whether the pair counts (both flags
  set, and p ≠ q by comparing two index ramps), the squared distance as a sum over the three coordinates, the
  distance, the cutoff and the pair energy — each entry from entries of the argument arrays at (b, p), (b, q)
  only — and sums the pair energies over p and q. Entry by entry these are the stages of the pair energy; the sum
  over three coordinates from 0 is the three squares added in order, and the sum over the two trailing axes from 0
  is the double sum.
-/
import proofs.«139432_j17085379903614_1_alg».proof.Proof.Gen.ReferenceIdeal.Read
import proofs.«139432_j17085379903614_1_alg».proof.Proof.LibPairSums
import proofs.«139432_j17085379903614_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Coulomb

/-- The three argument arrays: positions, charges, validity flags. -/
abbrev Pos := (⟨S64x512x3, .f32⟩ : BufTy).Contents (Elt Ideal)
abbrev Chg := (⟨S64x512, .f32⟩ : BufTy).Contents (Elt Ideal)
abbrev Flg := (⟨S64x512, .i1⟩ : BufTy).Contents (Elt Ideal)

/-- Whether the pair (p, q) of molecule b counts. -/
theorem counts_apply (x2 : Flg) (b : Fin 64) (p q : Fin 512) :
    val_main_v13 (F := Ideal) x2 (ix3 b p q) = counts x2 b p q := by
  rw [val_main_v13_apply, val_main_v4_apply, val_main_v2_apply, val_main_v0_apply, val_main_v3_apply, val_main_v1_apply,
    val_main_v12_apply, val_main_v11_apply, val_main_v10_apply, val_main_v9_apply, val_main_v8_apply, val_main_v5_apply,
    val_main_v7_apply, val_main_c_apply, val_main_v6_apply]
  have e1 : idx_main_v0 (idx_main_v2 (ix3 b p q)) = ix2 b p :=
    funext fun a => Fin.ext (by match a with | ⟨0, _⟩ => rfl | ⟨1, _⟩ => rfl)
  have e2 : idx_main_v1 (idx_main_v3 (ix3 b p q)) = ix2 b q :=
    funext fun a => Fin.ext (by match a with | ⟨0, _⟩ => rfl | ⟨1, _⟩ => rfl)
  rw [e1, e2]
  show IntOp.andi (IntOp.andi (x2 (ix2 b p)) (x2 (ix2 b q)))
      (~~~ IntOp.cmpi .eq (IntOp.addi (BitVec.ofNat 32 p.val) 0#32) (BitVec.ofNat 32 q.val)) = _
  rw [show IntOp.addi (BitVec.ofNat 32 p.val) 0#32 = BitVec.ofNat 32 p.val from BitVec.add_zero _]
  rfl

/-- The squared distance of atoms p and q of molecule b: the three squares, added from 0 in order. -/
theorem dist2_apply (x0 : Pos) (b : Fin 64) (p q : Fin 512) :
    val_main_v20 (F := Ideal) x0 (ix3 b p q) = dist2 x0 b p q := by
  rw [val_main_v20_apply, val_main_cst_apply, Fin.sum_univ_three]
  simp only [val_main_v19_apply, val_main_v18_apply, val_main_v16_apply, val_main_v14_apply, val_main_v17_apply,
    val_main_v15_apply]
  have ep : ∀ k : Fin 3, idx_main_v14 (idx_main_v16 (idx_main_v20 (ix3 b p q) k)) = ix3 b p k := fun k =>
    funext fun a => Fin.ext (by match a with | ⟨0, _⟩ => rfl | ⟨1, _⟩ => rfl | ⟨2, _⟩ => rfl)
  have eq : ∀ k : Fin 3, idx_main_v15 (idx_main_v17 (idx_main_v20 (ix3 b p q) k)) = ix3 b q k := fun k =>
    funext fun a => Fin.ext (by match a with | ⟨0, _⟩ => rfl | ⟨1, _⟩ => rfl | ⟨2, _⟩ => rfl)
  simp only [ep, eq]
  show Ideal.ofBits .f32 0x00000000#32 + _ = _
  rw [Ideal.ofBits_zero_f32, zero_add]
  rfl

/-- The distance of the pair. -/
theorem dist_apply (x0 : Pos) (x2 : Flg) (b : Fin 64) (p q : Fin 512) :
    val_main_v22 (F := Ideal) x0 x2 (ix3 b p q) = pairDist (counts x2 b p q) (dist2 x0 b p q) := by
  rw [val_main_v22_apply, val_main_v21_apply, counts_apply, dist2_apply, val_main_call0_v1_apply,
    val_main_call0_v0_apply, val_main_cst_0_apply]
  rfl

/-- The distance in units of the cutoff radius. -/
theorem ratio_apply (x0 : Pos) (x2 : Flg) (b : Fin 64) (p q : Fin 512) :
    val_main_v24 (F := Ideal) x0 x2 (ix3 b p q) = Ideal.div (pairDist (counts x2 b p q) (dist2 x0 b p q)) wRc := by
  rw [val_main_v24_apply, dist_apply, val_main_v23_apply, val_main_cst_1_apply]
  rfl

/-- Whether the pair is inside the cutoff. -/
theorem inside_apply (x0 : Pos) (x2 : Flg) (b : Fin 64) (p q : Fin 512) :
    val_main_v26 (F := Ideal) x0 x2 (ix3 b p q) = inside (pairDist (counts x2 b p q) (dist2 x0 b p q)) := by
  rw [val_main_v26_apply, ratio_apply, val_main_v25_apply, val_main_cst_2_apply]
  rfl

/-- The smooth cutoff of the pair. -/
theorem bump_apply (x0 : Pos) (x2 : Flg) (b : Fin 64) (p q : Fin 512) :
    val_main_v36 (F := Ideal) x0 x2 (ix3 b p q) = bump (pairDist (counts x2 b p q) (dist2 x0 b p q)) := by
  rw [val_main_v36_apply, inside_apply, val_main_v35_apply, val_main_v34_apply, val_main_v33_apply, val_main_cst_6_apply,
    val_main_v32_apply, val_main_v31_apply, val_main_cst_5_apply, val_main_v30_apply, val_main_v29_apply,
    val_main_cst_4_apply, val_main_v28_apply, val_main_v27_apply, inside_apply, ratio_apply, val_main_call1_v1_apply,
    val_main_call1_v0_apply, val_main_cst_3_apply, val_main_call2_v1_apply, val_main_call2_v0_apply, val_main_cst_7_apply]
  rfl

/-- The product of the two charges. -/
theorem charges_apply (x1 : Chg) (b : Fin 64) (p q : Fin 512) :
    val_main_v43 (F := Ideal) x1 (ix3 b p q) = x1 (ix2 b p) * x1 (ix2 b q) := by
  rw [val_main_v43_apply, val_main_v41_apply, val_main_v39_apply, val_main_v42_apply, val_main_v40_apply]
  have e1 : idx_main_v39 (idx_main_v41 (ix3 b p q)) = ix2 b p :=
    funext fun a => Fin.ext (by match a with | ⟨0, _⟩ => rfl | ⟨1, _⟩ => rfl)
  have e2 : idx_main_v40 (idx_main_v42 (ix3 b p q)) = ix2 b q :=
    funext fun a => Fin.ext (by match a with | ⟨0, _⟩ => rfl | ⟨1, _⟩ => rfl)
  rw [e1, e2]
  rfl

/-- The energy of the pair. -/
theorem pair_apply (x0 : Pos) (x1 : Chg) (x2 : Flg) (b : Fin 64) (p q : Fin 512) :
    val_main_v46 (F := Ideal) x0 x1 x2 (ix3 b p q)
      = pairTerm (counts x2 b p q) (dist2 x0 b p q) (x1 (ix2 b p) * x1 (ix2 b q)) := by
  rw [val_main_v46_apply, counts_apply, val_main_v45_apply, val_main_v44_apply, val_main_v38_apply, val_main_v37_apply,
    val_main_cst_8_apply, bump_apply, charges_apply, dist_apply, val_main_call3_v1_apply, val_main_call3_v0_apply,
    val_main_cst_9_apply]
  rfl

/-- The reference's result: the energy of every molecule. -/
theorem result_eq (x0 : Pos) (x1 : Chg) (x2 : Flg) : val_main_v49 (F := Ideal) x0 x1 x2 = energies x0 x1 x2 := by
  funext i
  obtain ⟨b, rfl⟩ : ∃ b : Fin 64, i = ix1 b := ⟨i 0, eq_ix1 i⟩
  rw [val_main_v49_apply, val_main_v48_apply, val_main_cst_11_apply]
  show wScale * val_main_v47 (F := Ideal) x0 x1 x2 (ix1 b) = energy x0 x1 x2 b
  unfold val_main_v47 energy
  refine congrArg (wScale * ·) ?_
  simp only [Host.reduceAdd, Ideal.hostReduceAdd_def]
  rw [Cert.LibPairSums.host_sum_last2_apply, val_main_cst_10_apply]
  show Ideal.ofBits .f32 0x00000000#32 + _ = _
  rw [Ideal.ofBits_zero_f32, zero_add]
  exact Finset.sum_congr rfl fun p _ => Finset.sum_congr rfl fun q _ => pair_apply x0 x1 x2 b p q

end Cert.ReferenceIdeal.RefValue

end
-- ==== Proof.lean ====
/-
  A dense, masked all-pairs Coulomb sum with a smooth cutoff, one number per molecule: 64 molecules of 512 atoms.

  For a molecule with atom positions r_p, charges c_p and a validity flag per atom, both programs return

      κ · Σ_p Σ_q [p, q both valid, p ≠ q] (1 - f(d_pq / rc)) · c_p c_q / d_pq,    d_pq = sqrt |r_p - r_q|²,

  with f the bump exp (1 - 1 / (1 - x²)) inside the cutoff x < 1 and 0 outside, a pair that does not count replaced by
  distance 1 before the square root and contributing 0. The kernel works on one molecule per grid point, with the
  coordinates as three rows and the flags as the numbers 0 and 1: it decides "both valid" by comparing the product of
  two flags with one half, adds the three squared coordinate differences two at a time, sums the pair energies along
  each row and then the row sums, and the host reads its [64, 1, 1] output as a vector. The reference works on all
  molecules at once: it decides "both valid" by the conjunction of the two flags, sums the squared differences over
  the coordinate axis from 0, and sums the pair energies over both atom axes at once, from 0.

  Over the extended reals these are the same number (Proof/Spec.lean states it once, as `energy`). Every constant is the same binary word
  in both programs and is never evaluated, except one half: a product of two numbers that are each 0 or 1 exceeds
  one half exactly when both are 1. Every operation on a pair is applied to the same values in the same order on both
  sides. The sums differ only in grouping, and addition of extended reals is commutative and associative with 0
  neutral, so no input needs to be finite for the two results to agree: the precondition is not used.

  The modules: Proof/Spec.lean (the energy; the fact about one half), Proof/KernelPoint.lean (the number the kernel
  body stores for a molecule), Proof/KernelValue.lean (the kernel's run), Proof/RefValue.lean (the reference's
  result), Proof/LibRows.lean and Proof/LibPairSums.lean (layout operations and sums read at an index).
  Read over the extended reals the kernel's text is its own text, operation for operation, so the claim that this
  reading is preserved has nothing to state.
-/
import proofs.«139432_j17085379903614_1_alg».proof.Defs
import proofs.«139432_j17085379903614_1_alg».proof.Proof.Gen.Kernel
import proofs.«139432_j17085379903614_1_alg».proof.Proof.Gen.Kernel.Skeleton
import proofs.«139432_j17085379903614_1_alg».proof.Proof.Gen.Kernel.Launch
import proofs.«139432_j17085379903614_1_alg».proof.Proof.Gen.Kernel.Points
import proofs.«139432_j17085379903614_1_alg».proof.Proof.Gen.Kernel.Frame
import proofs.«139432_j17085379903614_1_alg».proof.Proof.Gen.KernelIdeal
import proofs.«139432_j17085379903614_1_alg».proof.Proof.Gen.KernelIdeal.Skeleton
import proofs.«139432_j17085379903614_1_alg».proof.Proof.Gen.KernelIdeal.Launch
import proofs.«139432_j17085379903614_1_alg».proof.Proof.Gen.KernelIdeal.Points
import proofs.«139432_j17085379903614_1_alg».proof.Proof.Gen.KernelIdeal.Frame
import proofs.«139432_j17085379903614_1_alg».proof.Proof.Gen.ReferenceIdeal
import proofs.«139432_j17085379903614_1_alg».proof.Proof.Gen.ReferenceIdeal.Run
import proofs.«139432_j17085379903614_1_alg».proof.Proof.Gen.ReferenceIdeal.Read
import proofs.«139432_j17085379903614_1_alg».proof.Proof.Gen.Pre_finite_inputs
import proofs.«139432_j17085379903614_1_alg».proof.Proof.KernelValue
import proofs.«139432_j17085379903614_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs to completion and leaves its arguments as launched. -/
theorem frame_k [Cert.Kernel.Facts] [Cert.Pre_finite_inputs.Facts] : Cert.frame_Kernel :=
  fun m ρ _ => Cert.Kernel.Gen.frame m ρ

/-- So does its reading over the extended reals. -/
theorem frame_ki [Cert.KernelIdeal.Facts] [Cert.Pre_finite_inputs.Facts] : Cert.frame_KernelIdeal :=
  fun m ρ _ => Cert.KernelIdeal.Gen.frame m ρ

/-- The reference runs to completion and leaves its arguments as launched: its run, the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with every molecule's energy: the kernel's run and
    the reference's result, at the same arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Coulomb.energies (Cert.KernelIdeal.KValue.pos m c) (Cert.KernelIdeal.KValue.chg m c)
    (Cert.KernelIdeal.KValue.flg m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
